-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x32 : Shape := ⟨2, ![512, 32]⟩
abbrev S32x16 : Shape := ⟨2, ![32, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg6 : FVec F S32x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S8192x512 .f32) (main_arg1 : IVec S262144 32) (main_arg2 : IVec S262144 32) (main_arg3 : FVec F S262144 .f32) (main_arg4 : FVec F S512x32 .f32) (main_arg5 : FVec F S32x16 .f32) (main_arg6 : FVec F S32x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_v13 main_v16
-- ==== Kernel.lean ====
abbrev S8192x512 : Shape := ⟨2, ![8192, 512]⟩
abbrev S262144 : Shape := ⟨1, ![262144]⟩
abbrev S512x32 : Shape := ⟨2, ![512, 32]⟩
abbrev S32x16 : Shape := ⟨2, ![32, 16]⟩
abbrev S8192x32 : Shape := ⟨2, ![8192, 32]⟩
abbrev S1024x512 : Shape := ⟨2, ![1024, 512]⟩
abbrev S1024x32 : Shape := ⟨2, ![1024, 32]⟩
abbrev S262144x1 : Shape := ⟨2, ![262144, 1]⟩
abbrev S_ : Shape := ⟨0, ![]⟩
abbrev S262144x32 : Shape := ⟨2, ![262144, 32]⟩
abbrev S8192x16 : Shape := ⟨2, ![8192, 16]⟩
abbrev S1024x16 : Shape := ⟨2, ![1024, 16]⟩
abbrev S262144x16 : Shape := ⟨2, ![262144, 16]⟩
abbrev S16x8192 : Shape := ⟨2, ![16, 8192]⟩
abbrev S8192x8192 : Shape := ⟨2, ![8192, 8192]⟩
abbrev S256x16 : Shape := ⟨2, ![256, 16]⟩
abbrev S256x8192 : Shape := ⟨2, ![256, 8192]⟩

abbrev nBuf : Space → Nat
  | .hbm => 51
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S8192x32, .f32⟩
  | .hbm, ⟨8, _⟩ => ⟨S262144x1, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x32, .f32⟩
  | .hbm, ⟨18, _⟩ => ⟨S262144x32, .f32⟩
  | .hbm, ⟨19, _⟩ => ⟨S262144x32, .f32⟩
  | .hbm, ⟨20, _⟩ => ⟨S_, .f32⟩
  | .hbm, ⟨21, _⟩ => ⟨S8192x32, .f32⟩
  | .hbm, ⟨22, _⟩ => ⟨S262144x1, .i32⟩
  | .hbm, ⟨23, _⟩ => ⟨S8192x32, .f32⟩
  | .hbm, ⟨24, _⟩ => ⟨S_, .f32⟩
  | .hbm, ⟨25, _⟩ => ⟨S8192x32, .f32⟩
  | .hbm, ⟨26, _⟩ => ⟨S8192x32, .f32⟩
  | .hbm, ⟨27, _⟩ => ⟨S8192x16, .f32⟩
  | .hbm, ⟨28, _⟩ => ⟨S262144x1, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x16, .f32⟩
  | .hbm, ⟨38, _⟩ => ⟨S262144x16, .f32⟩
  | .hbm, ⟨39, _⟩ => ⟨S262144x16, .f32⟩
  | .hbm, ⟨40, _⟩ => ⟨S_, .f32⟩
  | .hbm, ⟨41, _⟩ => ⟨S8192x16, .f32⟩
  | .hbm, ⟨42, _⟩ => ⟨S262144x1, .i32⟩
  | .hbm, ⟨43, _⟩ => ⟨S8192x16, .f32⟩
  | .hbm, ⟨44, _⟩ => ⟨S_, .f32⟩
  | .hbm, ⟨45, _⟩ => ⟨S8192x16, .f32⟩
  | .hbm, ⟨46, _⟩ => ⟨S8192x16, .f32⟩
  | .hbm, ⟨47, _⟩ => ⟨S8192x16, .bf16⟩
  | .hbm, ⟨48, _⟩ => ⟨S16x8192, .f32⟩
  | .hbm, ⟨49, _⟩ => ⟨S16x8192, .bf16⟩
  | .hbm, ⟨50, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S32x16, .f32⟩
  | .local _ .vmem, ⟨8, _⟩ => ⟨S1024x16, .f32⟩
  | .local _ .vmem, ⟨9, _⟩ => ⟨S1024x16, .f32⟩
  | .local _ .vmem, ⟨10, _⟩ => ⟨S256x16, .bf16⟩
  | .local _ .vmem, ⟨11, _⟩ => ⟨S256x16, .bf16⟩
  | .local _ .vmem, ⟨12, _⟩ => ⟨S16x8192, .bf16⟩
  | .local _ .vmem, ⟨13, _⟩ => ⟨S256x8192, .f32⟩
  | .local _ .vmem, ⟨14, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x16 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1024x32_S1024x32_0_0 : ∀ a, (![0, 0] : Fin 2 → Nat) a + S1024x32.size a ≤ S1024x32.size a
  h_S1024x32 : 0 < S1024x32.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x32_0_1 : S262144x1.BroadcastsInDim S262144x32 (![0, 1] : Fin 2 → Fin S262144x32.rank)
  bcast_S_S8192x32 : S_.BroadcastsInDim S8192x32 (![] : Fin 0 → Fin S8192x32.rank)
  shapeCasts_S1024x32_S1024x32 : S1024x32.ShapeCasts S1024x32
  inb_S32x16_S32x16_0_0 : ∀ a, (![0, 0] : Fin 2 → Nat) a + S32x16.size a ≤ S32x16.size a
  h_S32x16 : 0 < S32x16.numel
  inb_S1024x16_S1024x16_0_0 : ∀ a, (![0, 0] : Fin 2 → Nat) a + S1024x16.size a ≤ S1024x16.size a
  h_S1024x16 : 0 < S1024x16.numel
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  transposes_S8192x16_S16x8192_1_0 : S8192x16.Transposes [1, 0] S16x8192
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S256x8192_S256x8192_0_0 : ∀ a, (![0, 0] : Fin 2 → Nat) a + S256x8192.size a ≤ S256x8192.size a
  h_S256x8192 : 0 < S256x8192.numel
  dot_S1024x512_S512x32_S1024x32_1_0_0_1_n_n_wf : DotDims.WF S1024x512 S512x32 S1024x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S1024x32_S32x16_S1024x16_1_0_0_1_n_n_wf : DotDims.WF S1024x32 S32x16 S1024x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S256x16_S16x8192_S256x8192_1_0_0_1_n_n_wf : DotDims.WF S256x16 S16x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S8192x32.size a
  hwx1_0 : ∀ i : grid1.Coords, EltTy.bits .f32 = 32 ∨ (Rect.block (s := S8192x32) S1024x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S8192x16.size a
  hwx1_2 : ∀ i : grid1.Coords, EltTy.bits .f32 = 32 ∨ (Rect.block (s := S8192x16) S1024x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x16.size a ≤ S8192x16.size a
  hwx2_0 : ∀ i : grid2.Coords, EltTy.bits .bf16 = 32 ∨ (Rect.block (s := S8192x16) S256x16.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8192.size a ≤ S16x8192.size a
  hwx2_1 : ∀ i : grid2.Coords, EltTy.bits .bf16 = 32 ∨ (Rect.block (s := S16x8192) S16x8192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x8192.size a ≤ S8192x8192.size a
  hwx2_2 : ∀ i : grid2.Coords, EltTy.bits .f32 = 32 ∨ (Rect.block (s := S8192x8192) S256x8192.size (cc2_transform_2 i) (hinb2_2 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S256x16_S16x8192_S256x8192_1_0_0_1_n_n : DotDims S256x16 S16x8192 S256x8192 where
  lhsContracting := [1]
  rhsContracting := [0]
  lhsNonContracting := [0]
  rhsNonContracting := [1]
  lhsBatch := []
  rhsBatch := []
  wf := dot_S256x16_S16x8192_S256x8192_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S256x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S16x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S256x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S262144 : Shape := ⟨1, ![262144]⟩
abbrev S512x32 : Shape := ⟨2, ![512, 32]⟩
abbrev S32x16 : Shape := ⟨2, ![32, 16]⟩
abbrev S8192x32 : Shape := ⟨2, ![8192, 32]⟩
abbrev S262144x1 : Shape := ⟨2, ![262144, 1]⟩
abbrev S_ : Shape := ⟨0, ![]⟩
abbrev S262144x32 : Shape := ⟨2, ![262144, 32]⟩
abbrev S8192x16 : Shape := ⟨2, ![8192, 16]⟩
abbrev S262144x16 : Shape := ⟨2, ![262144, 16]⟩
abbrev S16x8192 : Shape := ⟨2, ![16, 8192]⟩
abbrev S8192x8192 : Shape := ⟨2, ![8192, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S8192x32, .f32⟩
  | .hbm, ⟨8, _⟩ => ⟨S262144x1, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x32, .f32⟩
  | .hbm, ⟨18, _⟩ => ⟨S262144x32, .f32⟩
  | .hbm, ⟨19, _⟩ => ⟨S262144x32, .f32⟩
  | .hbm, ⟨20, _⟩ => ⟨S_, .f32⟩
  | .hbm, ⟨21, _⟩ => ⟨S8192x32, .f32⟩
  | .hbm, ⟨22, _⟩ => ⟨S262144x1, .i32⟩
  | .hbm, ⟨23, _⟩ => ⟨S8192x32, .f32⟩
  | .hbm, ⟨24, _⟩ => ⟨S_, .f32⟩
  | .hbm, ⟨25, _⟩ => ⟨S8192x32, .f32⟩
  | .hbm, ⟨26, _⟩ => ⟨S8192x32, .f32⟩
  | .hbm, ⟨27, _⟩ => ⟨S8192x16, .f32⟩
  | .hbm, ⟨28, _⟩ => ⟨S262144x1, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x16, .f32⟩
  | .hbm, ⟨38, _⟩ => ⟨S262144x16, .f32⟩
  | .hbm, ⟨39, _⟩ => ⟨S262144x16, .f32⟩
  | .hbm, ⟨40, _⟩ => ⟨S_, .f32⟩
  | .hbm, ⟨41, _⟩ => ⟨S8192x16, .f32⟩
  | .hbm, ⟨42, _⟩ => ⟨S262144x1, .i32⟩
  | .hbm, ⟨43, _⟩ => ⟨S8192x16, .f32⟩
  | .hbm, ⟨44, _⟩ => ⟨S8192x16, .f32⟩
  | .hbm, ⟨45, _⟩ => ⟨S262144x1, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x16, .f32⟩
  | .hbm, ⟨55, _⟩ => ⟨S262144x16, .f32⟩
  | .hbm, ⟨56, _⟩ => ⟨S262144x16, .f32⟩
  | .hbm, ⟨57, _⟩ => ⟨S_, .f32⟩
  | .hbm, ⟨58, _⟩ => ⟨S8192x16, .f32⟩
  | .hbm, ⟨59, _⟩ => ⟨S262144x1, .i32⟩
  | .hbm, ⟨60, _⟩ => ⟨S8192x16, .f32⟩
  | .hbm, ⟨61, _⟩ => ⟨S_, .f32⟩
  | .hbm, ⟨62, _⟩ => ⟨S8192x16, .f32⟩
  | .hbm, ⟨63, _⟩ => ⟨S8192x16, .f32⟩
  | .hbm, ⟨64, _⟩ => ⟨S_, .f32⟩
  | .hbm, ⟨65, _⟩ => ⟨S8192x16, .f32⟩
  | .hbm, ⟨66, _⟩ => ⟨S8192x16, .f32⟩
  | .hbm, ⟨67, _⟩ => ⟨S16x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x32_0_1 : S262144x1.BroadcastsInDim S262144x32 (![0, 1] : Fin 2 → Fin S262144x32.rank)
  bcast_S_S8192x32 : S_.BroadcastsInDim S8192x32 (![] : Fin 0 → Fin S8192x32.rank)
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  transposes_S8192x16_S16x8192_1_0 : S8192x16.Transposes [1, 0] S16x8192
  bcast_S_S8192x8192 : S_.BroadcastsInDim S8192x8192 (![] : Fin 0 → Fin S8192x8192.rank)
  dot_S8192x512_S512x32_S8192x32_1_0_0_1_n_n_wf : DotDims.WF S8192x512 S512x32 S8192x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S8192x32_S32x16_S8192x16_1_0_0_1_n_n_wf : DotDims.WF S8192x32 S32x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S8192x16_S16x8192_S8192x8192_1_0_0_1_n_n_wf : DotDims.WF S8192x16 S16x8192 S8192x8192 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.KRun.lean ====
/-
  The idealized kernel's run with its result named.

  Every weakly fair execution of the program terminates without a fault; its result array ends holding what the
  third region's write-backs leave in it (the last boundary's contents, read at the result), and the seven argument
  arrays end as launched.
-/
import proofs.«117678_j31671088840936_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KRun

end
-- ==== Proof.HostSide.lean ====
/-
  The host operations between the three regions, as functions of what they read.

  Between the first and the second region the program forms, from the first projection Y = X·W0, the hidden layer
  relu(A·Y): every edge e adds val(e) · Y[col(e), :] into row row(e) of a zero matrix (a gather, a product and a
  scatter-add), and a maximum with zero follows. Between the second and the third region the same sparse product is
  taken of the second projection, the result is clamped from below at the literal 1e-32, and the clamped matrix and
  its transpose are rounded to bf16 — a rounding that is the identity on the ideal values.

  Both are stated over the reference program's own stages, so that the kernel's intermediate arrays and the
  reference's are the same functions of the same operands.
-/
import proofs.«117678_j31671088840936_2_alg».proof.Proof.Gen.KernelIdeal.Launch
import proofs.«117678_j31671088840936_2_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.ReferenceIdeal

/-- relu(A·Y): the hidden layer from the first projection Y, the edge rows, the edge columns and the edge values. -/
def hidden (y : FVec Ideal S8192x32 .f32) (row col : (⟨S262144, .i32⟩ : BufTy).Contents (Elt Ideal))
    (val : (⟨S262144, .f32⟩ : BufTy).Contents (Elt Ideal)) : FVec Ideal S8192x32 .f32 :=
  maximumf (Host.scatterAdd scatter_S8192x32_S262144x1_S262144x32_1_0_0_1 (Read.val_main_v11 (F := Ideal))
      (Read.val_main_v12 (F := Ideal) row)
      (mulf (Read.val_main_v9 (F := Ideal) val)
        (Host.gather gather_S8192x32_S262144x1_S262144x32_1_0_n_n_0_1_132 y (Read.val_main_v7 (F := Ideal) col))))
    (Read.val_main_call0_v0 (F := Ideal))

/-- max(A·P, 1e-32): the clamped latent matrix from the second projection P and the edges. -/
def latent (p : FVec Ideal S8192x16 .f32) (row col : (⟨S262144, .i32⟩ : BufTy).Contents (Elt Ideal))
    (val : (⟨S262144, .f32⟩ : BufTy).Contents (Elt Ideal)) : FVec Ideal S8192x16 .f32 :=
  maximumf (Host.scatterAdd scatter_S8192x16_S262144x1_S262144x16_1_0_0_1 (Read.val_main_v26 (F := Ideal))
      (Read.val_main_v27 (F := Ideal) row)
      (mulf (Read.val_main_v24 (F := Ideal) val)
        (Host.gather gather_S8192x16_S262144x1_S262144x16_1_0_n_n_0_1_116 p (Read.val_main_v22 (F := Ideal) col))))
    (Read.val_main_v43 (F := Ideal))

/-- The transpose of the clamped latent matrix. -/
def latentT (p : FVec Ideal S8192x16 .f32) (row col : (⟨S262144, .i32⟩ : BufTy).Contents (Elt Ideal))
    (val : (⟨S262144, .f32⟩ : BufTy).Contents (Elt Ideal)) : FVec Ideal S16x8192 .f32 :=
  transpose S16x8192 [1, 0] (latent p row col val) Facts₀.transposes_S8192x16_S16x8192_1_0

/-- The reference's hidden layer is `hidden` of its first projection. -/
theorem ref_hidden (x0 : (⟨S8192x512, .f32⟩ : BufTy).Contents (Elt Ideal)) (x1 x2 : (⟨S262144, .i32⟩ : BufTy).Contents (Elt Ideal))
    (x3 : (⟨S262144, .f32⟩ : BufTy).Contents (Elt Ideal)) (x4 : (⟨S512x32, .f32⟩ : BufTy).Contents (Elt Ideal)) :
    Read.val_main_v14 (F := Ideal) x0 x1 x2 x3 x4 = hidden (Read.val_main_v0 (F := Ideal) x0 x4) x1 x2 x3 := rfl

/-- The reference's clamped latent matrix is `latent` of its second projection. -/
theorem ref_latent (x0 : (⟨S8192x512, .f32⟩ : BufTy).Contents (Elt Ideal)) (x1 x2 : (⟨S262144, .i32⟩ : BufTy).Contents (Elt Ideal))
    (x3 : (⟨S262144, .f32⟩ : BufTy).Contents (Elt Ideal)) (x4 : (⟨S512x32, .f32⟩ : BufTy).Contents (Elt Ideal)) (x5 : (⟨S32x16, .f32⟩ : BufTy).Contents (Elt Ideal)) :
    Read.val_main_v44 (F := Ideal) x0 x1 x2 x3 x4 x5 = latent (Read.val_main_v15 (F := Ideal) x0 x1 x2 x3 x4 x5) x1 x2 x3 := rfl

/-- The reference's transposed latent matrix is `latentT` of its second projection. -/
theorem ref_latentT (x0 : (⟨S8192x512, .f32⟩ : BufTy).Contents (Elt Ideal)) (x1 x2 : (⟨S262144, .i32⟩ : BufTy).Contents (Elt Ideal))
    (x3 : (⟨S262144, .f32⟩ : BufTy).Contents (Elt Ideal)) (x4 : (⟨S512x32, .f32⟩ : BufTy).Contents (Elt Ideal)) (x5 : (⟨S32x16, .f32⟩ : BufTy).Contents (Elt Ideal)) :
    Read.val_main_v47 (F := Ideal) x0 x1 x2 x3 x4 x5 = latentT (Read.val_main_v15 (F := Ideal) x0 x1 x2 x3 x4 x5) x1 x2 x3 := rfl

/-- Rounding an f32 array to bf16 is the identity on the ideal values. -/
theorem truncf_bf16_ideal {s : Shape} (x : FVec Ideal s .f32) (h : FTy.bf16.bits < FTy.f32.bits) : truncf .bf16 x h = x := rfl

section Kernel
open Cert.KernelIdeal.Gen

variable (W : Valuation Cert.KernelIdeal.τ Cert.KernelIdeal.sig (Elt Ideal))

/-- The kernel's host operations between the first two regions leave `hidden` of what they found in the first
    region's result and in the edge arrays. -/
theorem kernel_hidden :
    StableHlo.after (Cert.KernelIdeal.Gen.hostOps1_1 (F := Ideal)) (StableHlo.after (Cert.KernelIdeal.Gen.hostOps1 (F := Ideal)) W) (Proc.devRef .tc Cert.KernelIdeal.main_v14)
      = hidden (W (Proc.devRef .tc Cert.KernelIdeal.main_v0)) (W (Proc.devRef .tc Cert.KernelIdeal.main_arg1)) (W (Proc.devRef .tc Cert.KernelIdeal.main_arg2)) (W (Proc.devRef .tc Cert.KernelIdeal.main_arg3)) := by
  after_results
  rfl

/-- Those operations leave the edge arrays and the second weight as they found them. -/
theorem kernel_keep1 :
    StableHlo.after (Cert.KernelIdeal.Gen.hostOps1_1 (F := Ideal)) (StableHlo.after (Cert.KernelIdeal.Gen.hostOps1 (F := Ideal)) W) (Proc.devRef .tc Cert.KernelIdeal.main_arg1) = W (Proc.devRef .tc Cert.KernelIdeal.main_arg1)
    ∧ StableHlo.after (Cert.KernelIdeal.Gen.hostOps1_1 (F := Ideal)) (StableHlo.after (Cert.KernelIdeal.Gen.hostOps1 (F := Ideal)) W) (Proc.devRef .tc Cert.KernelIdeal.main_arg2) = W (Proc.devRef .tc Cert.KernelIdeal.main_arg2)
    ∧ StableHlo.after (Cert.KernelIdeal.Gen.hostOps1_1 (F := Ideal)) (StableHlo.after (Cert.KernelIdeal.Gen.hostOps1 (F := Ideal)) W) (Proc.devRef .tc Cert.KernelIdeal.main_arg3) = W (Proc.devRef .tc Cert.KernelIdeal.main_arg3)
    ∧ StableHlo.after (Cert.KernelIdeal.Gen.hostOps1_1 (F := Ideal)) (StableHlo.after (Cert.KernelIdeal.Gen.hostOps1 (F := Ideal)) W) (Proc.devRef .tc Cert.KernelIdeal.main_arg5) = W (Proc.devRef .tc Cert.KernelIdeal.main_arg5) := by
  refine ⟨?_, ?_, ?_, ?_⟩ <;> after_results

/-- The kernel's host operations between the last two regions leave, in the decode region's first operand, `latent`
    of what they found in the second region's result and in the edge arrays: the rounding to bf16 is the identity. -/
theorem kernel_latent :
    StableHlo.after (Cert.KernelIdeal.Gen.hostOps2 (F := Ideal)) W (Proc.devRef .tc Cert.KernelIdeal.main_v31)
      = latent (W (Proc.devRef .tc Cert.KernelIdeal.main_v15)) (W (Proc.devRef .tc Cert.KernelIdeal.main_arg1)) (W (Proc.devRef .tc Cert.KernelIdeal.main_arg2)) (W (Proc.devRef .tc Cert.KernelIdeal.main_arg3)) := by
  after_results_simp
  exact (truncf_bf16_ideal _ _).trans rfl

/-- And in its second operand the transpose of the same matrix. -/
theorem kernel_latentT :
    StableHlo.after (Cert.KernelIdeal.Gen.hostOps2 (F := Ideal)) W (Proc.devRef .tc Cert.KernelIdeal.main_v33)
      = latentT (W (Proc.devRef .tc Cert.KernelIdeal.main_v15)) (W (Proc.devRef .tc Cert.KernelIdeal.main_arg1)) (W (Proc.devRef .tc Cert.KernelIdeal.main_arg2)) (W (Proc.devRef .tc Cert.KernelIdeal.main_arg3)) := by
  after_results_simp
  exact (truncf_bf16_ideal _ _).trans rfl

end Kernel

end Cert.Bridge

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.Payloads.lean ====
/-
  The three kernel bodies, each read at one entry of the block it writes.

  The two projection bodies write the product of their two loaded blocks: entry (p, q) of the written block is
  ∑ c, x(p, c) · w(c, q). The decode body writes the logistic of such a product. The roundings to bf16 on the way
  into a product, and the shape casts between equal shapes, are the identity on the ideal values.
-/
import proofs.«117678_j31671088840936_2_alg».proof.Proof.Gen.KernelIdeal.Skeleton
import proofs.«117678_j31671088840936_2_alg».proof.Proof.LibMatmulPlain
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- First projection: entry (p, q) of the written 1024×32 block is the row p of the 1024×512 block against the
    column q of the 512×32 weight. -/
theorem pay0_apply (x0 : Vec Ideal S1024x512 .f32) (x1 : Vec Ideal S512x32 .f32) (p : Fin 1024) (q : Fin 32) :
    k0_pay1 (F := Ideal) x0 x1 (ix2 p q) = ∑ c : Fin 512, x0 (ix2 p c) * x1 (ix2 c q) := by
  unfold k0_pay1
  exact Cert.LibMatmulPlain.matmul_plain_zero_apply none (truncf .bf16 x0 bitsLt_bf16_f32) (truncf .bf16 x1 bitsLt_bf16_f32) p q

/-- Second projection: entry (p, q) of the written 1024×16 block is the row p of the 1024×32 block against the
    column q of the 32×16 weight. -/
theorem pay1_apply (x0 : Vec Ideal S1024x32 .f32) (x1 : Vec Ideal S32x16 .f32) (p : Fin 1024) (q : Fin 16) :
    k1_pay1 (F := Ideal) x0 x1 (ix2 p q) = ∑ c : Fin 32, x0 (ix2 p c) * x1 (ix2 c q) := by
  unfold k1_pay1
  rw [shapeCast_self]
  exact Cert.LibMatmulPlain.matmul_plain_zero_apply none (truncf .bf16 x0 bitsLt_bf16_f32) (truncf .bf16 x1 bitsLt_bf16_f32) p q

/-- Decode: entry (p, q) of the written 256×8192 block is the logistic of the row p of the 256×16 block against
    the column q of the 16×8192 matrix. -/
theorem pay2_apply (x0 : Vec Ideal S256x16 .bf16) (x1 : Vec Ideal S16x8192 .bf16) (p : Fin 256) (q : Fin 8192) :
    k2_pay1 (F := Ideal) x0 x1 (ix2 p q) = Ideal.logistic (∑ c : Fin 16, x0 (ix2 p c) * x1 (ix2 c q)) := by
  unfold k2_pay1
  rw [shapeCast_self, shapeCast_self]
  show Ideal.logistic (matmul (DotDims.plain 256 16 8192) none x0 x1 (constant (F := Ideal) ⟨2, ![256, 8192]⟩ .f32 0x00000000#32) (ix2 p q)) = _
  rw [Cert.LibMatmulPlain.matmul_plain_zero_apply]

end Cert.KernelIdeal.Pay

end
-- ==== Proof.Region0.lean ====
/-
  The first projection region: when it ends, its result array holds the whole product X·W0 of its two operand arrays as the region found them, band of 1024 rows by band.
-/
import proofs.«117678_j31671088840936_2_alg».proof.Proof.Gen.KernelIdeal.Frame
import proofs.«117678_j31671088840936_2_alg».proof.Proof.Payloads
import Idealize.ShloMosaic.Lib.Pipeline.Value
import Idealize.ShloMosaic.Lib.ValueIdx

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen

/-- The whole 8192×32 result as one function of the two whole operands: entry (a, b) is ∑ c, A(a, c) · B(c, b). -/
def G0 (A : S8192x512.Idx → Elt Ideal .f32) (B : S512x32.Idx → Elt Ideal .f32) : S8192x32.Idx → Elt Ideal .f32 :=
  fun i => ∑ c : Fin 512, A (ix2 ⟨(i 0).val, (i 0).isLt⟩ c) * B (ix2 c ⟨(i 1).val, (i 1).isLt⟩)

theorem zero_offset : (![0, 0] : Fin 2 → Nat) = fun _ => 0 := funext fun a => by fin_cases a <;> rfl

/-- Where each window's block sits at grid point t: the left operand's and the result's blocks are the t-th band of
    1024 rows, the right operand's block is the whole matrix. -/
theorem block_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every band of 1024 rows is some grid point's. -/
theorem band_onto : ∀ (b : Fin 8), ∃ t : Fin cfg0.N, win0_2.index t = ![b.val, 0] :=
  (by decide +kernel : ∀ (b : Fin 8), ∃ t : Fin grid0.N, win0_2.index t = ![b.val, 0])

variable (V : (c : Dev nD) → (b : Ref sig .tc) → Buf (Elt Ideal) ((c : Thread nD τ).loc b))

/-- What grid point t writes back is the t-th band of rows of the whole product of the operands as the region
    finds them. -/
theorem flushed_eq (c : Dev nD) (t : Fin cfg0.N) :
    (dat0 V c).flushed 2 t = ((cfg0.win 2).blk t).view.read (Elt Ideal) (G0 (V c main_arg0) (V c main_arg4)) := by
  show (cfg0.win 2).cut (grid0.coords t) ((dat0 V c).after 2 t) = _
  rw [after0_2]
  unfold out0_2
  rw [View.canon_unit_zero zero_offset]
  simp only [View.ld_unit_zero (S := S1024x512) zero_offset, View.ld_unit_zero (S := S512x32) zero_offset]
  obtain ⟨e0, e1, e2, e3, e4, e5⟩ := block_positions t
  funext j
  obtain ⟨p, q, rfl⟩ : ∃ (p : Fin 1024) (q : Fin 32), j = ix2 p q := ⟨j 0, j 1, eq_ix2 j⟩
  refine (Pay.pay0_apply _ _ p q).trans ?_
  show _ = G0 (V c main_arg0) (V c main_arg4) (((cfg0.win 2).blk t).view.emb (ix2 p q))
  unfold G0
  refine (Finset.sum_congr rfl fun x _ => ?_)
  have hA : ((cfg0.win 0).blk t).view.emb (ix2 p x) = ix2 ⟨((((cfg0.win 2).blk t).view.emb (ix2 p q)) 0).val, ((((cfg0.win 2).blk t).view.emb (ix2 p q)) 0).isLt⟩ x := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * x.val = x.val; omega
  have hB : ((cfg0.win 1).blk t).view.emb (ix2 x q) = ix2 x ⟨((((cfg0.win 2).blk t).view.emb (ix2 p q)) 1).val, ((((cfg0.win 2).blk t).view.emb (ix2 p q)) 1).isLt⟩ := by
    funext a; apply Fin.ext
    match a with
    | ⟨0, _⟩ => show win0_1.index t (0 : Fin 2) * 512 + 1 * x.val = x.val; omega
    | ⟨1, _⟩ => show win0_1.index t (1 : Fin 2) * 32 + 1 * q.val = win0_2.index t (1 : Fin 2) * 32 + 1 * q.val; omega
  refine congrArg₂ (fun (u v : EReal) => u * v) ?_ ?_
  · show V c main_arg0 (((cfg0.win 0).blk t).view.emb (ix2 p x)) = _
    rw [hA]; rfl
  · show V c main_arg4 (((cfg0.win 1).blk t).view.emb (ix2 x q)) = _
    rw [hB]; rfl

/-- An index of the result array lies in grid point t's block exactly when each coordinate lies in the block's range. -/
theorem mem_blk (t : Fin cfg0.N) (i : S8192x32.Idx) :
    i ∈ ((cfg0.win 2).blk t).view.set ↔ ∀ a : Fin 2, win0_2.index t a * S1024x32.size a ≤ (i a).val ∧ (i a).val < win0_2.index t a * S1024x32.size a + S1024x32.size a := by
  show i ∈ ((View.whole main_v0).slice (win0_2.rect t)).set ↔ _
  rw [View.set_slice_whole, Rect.mem_set_unit]
  exact Iff.rfl

/-- The bands of 1024 rows tile the result: row r is in band r / 1024. -/
theorem covered (i : S8192x32.Idx) : ∃ t : Fin cfg0.N, (cfg0.win 2).flush t = true ∧ i ∈ ((cfg0.win 2).blk t).view.set := by
  have hi0 : (i 0).val < 8192 := (i 0).isLt
  have hi1 : (i 1).val < 32 := (i 1).isLt
  obtain ⟨t, ht⟩ := band_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 32 ≤ (i 1).val ∧ (i 1).val < win0_2.index t (1 : Fin 2) * 32 + 32; omega

/-- The result array when the region ends: the whole product of the operands as the region found them. -/
theorem final (c : Dev nD) : (dat0 V c).arrAt 2 cfg0.N = G0 (V c main_arg0) (V c main_arg4) :=
  (dat0 V c).arrAt_eq_of_cover 2 (G0 (V c main_arg0) (V c main_arg4)) (fun t _ => flushed_eq V c t) covered

end Cert.KernelIdeal.Reg0

end
-- ==== Proof.Region1.lean ====
/-
  The second projection region: when it ends, its result array holds the whole product H·W1 of its two operand arrays as the region found them, band of 1024 rows by band.
-/
import proofs.«117678_j31671088840936_2_alg».proof.Proof.Gen.KernelIdeal.Frame
import proofs.«117678_j31671088840936_2_alg».proof.Proof.Payloads
import Idealize.ShloMosaic.Lib.Pipeline.Value
import Idealize.ShloMosaic.Lib.ValueIdx

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen

/-- The whole 8192×16 result as one function of the two whole operands: entry (a, b) is ∑ c, A(a, c) · B(c, b). -/
def G1 (A : S8192x32.Idx → Elt Ideal .f32) (B : S32x16.Idx → Elt Ideal .f32) : S8192x16.Idx → Elt Ideal .f32 :=
  fun i => ∑ c : Fin 32, A (ix2 ⟨(i 0).val, (i 0).isLt⟩ c) * B (ix2 c ⟨(i 1).val, (i 1).isLt⟩)

theorem zero_offset : (![0, 0] : Fin 2 → Nat) = fun _ => 0 := funext fun a => by fin_cases a <;> rfl

/-- Where each window's block sits at grid point t: the left operand's and the result's blocks are the t-th band of
    1024 rows, the right operand's block is the whole matrix. -/
theorem block_positions : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every band of 1024 rows is some grid point's. -/
theorem band_onto : ∀ (b : Fin 8), ∃ t : Fin cfg1.N, win1_2.index t = ![b.val, 0] :=
  (by decide +kernel : ∀ (b : Fin 8), ∃ t : Fin grid1.N, win1_2.index t = ![b.val, 0])

variable (V : (c : Dev nD) → (b : Ref sig .tc) → Buf (Elt Ideal) ((c : Thread nD τ).loc b))

/-- What grid point t writes back is the t-th band of rows of the whole product of the operands as the region
    finds them. -/
theorem flushed_eq (c : Dev nD) (t : Fin cfg1.N) :
    (dat1 V c).flushed 2 t = ((cfg1.win 2).blk t).view.read (Elt Ideal) (G1 (V c main_v14) (V c main_arg5)) := by
  show (cfg1.win 2).cut (grid1.coords t) ((dat1 V c).after 2 t) = _
  rw [after1_2]
  unfold out1_2
  rw [View.canon_unit_zero zero_offset]
  simp only [View.ld_unit_zero (S := S1024x32) zero_offset, View.ld_unit_zero (S := S32x16) zero_offset]
  obtain ⟨e0, e1, e2, e3, e4, e5⟩ := block_positions t
  funext j
  obtain ⟨p, q, rfl⟩ : ∃ (p : Fin 1024) (q : Fin 16), j = ix2 p q := ⟨j 0, j 1, eq_ix2 j⟩
  refine (Pay.pay1_apply _ _ p q).trans ?_
  show _ = G1 (V c main_v14) (V c main_arg5) (((cfg1.win 2).blk t).view.emb (ix2 p q))
  unfold G1
  refine (Finset.sum_congr rfl fun x _ => ?_)
  have hA : ((cfg1.win 0).blk t).view.emb (ix2 p x) = ix2 ⟨((((cfg1.win 2).blk t).view.emb (ix2 p q)) 0).val, ((((cfg1.win 2).blk t).view.emb (ix2 p q)) 0).isLt⟩ x := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 32 + 1 * x.val = x.val; omega
  have hB : ((cfg1.win 1).blk t).view.emb (ix2 x q) = ix2 x ⟨((((cfg1.win 2).blk t).view.emb (ix2 p q)) 1).val, ((((cfg1.win 2).blk t).view.emb (ix2 p q)) 1).isLt⟩ := by
    funext a; apply Fin.ext
    match a with
    | ⟨0, _⟩ => show win1_1.index t (0 : Fin 2) * 32 + 1 * x.val = x.val; omega
    | ⟨1, _⟩ => show win1_1.index t (1 : Fin 2) * 16 + 1 * q.val = win1_2.index t (1 : Fin 2) * 16 + 1 * q.val; omega
  refine congrArg₂ (fun (u v : EReal) => u * v) ?_ ?_
  · show V c main_v14 (((cfg1.win 0).blk t).view.emb (ix2 p x)) = _
    rw [hA]; rfl
  · show V c main_arg5 (((cfg1.win 1).blk t).view.emb (ix2 x q)) = _
    rw [hB]; rfl

/-- An index of the result array lies in grid point t's block exactly when each coordinate lies in the block's range. -/
theorem mem_blk (t : Fin cfg1.N) (i : S8192x16.Idx) :
    i ∈ ((cfg1.win 2).blk t).view.set ↔ ∀ a : Fin 2, win1_2.index t a * S1024x16.size a ≤ (i a).val ∧ (i a).val < win1_2.index t a * S1024x16.size a + S1024x16.size a := by
  show i ∈ ((View.whole main_v15).slice (win1_2.rect t)).set ↔ _
  rw [View.set_slice_whole, Rect.mem_set_unit]
  exact Iff.rfl

/-- The bands of 1024 rows tile the result: row r is in band r / 1024. -/
theorem covered (i : S8192x16.Idx) : ∃ t : Fin cfg1.N, (cfg1.win 2).flush t = true ∧ i ∈ ((cfg1.win 2).blk t).view.set := by
  have hi0 : (i 0).val < 8192 := (i 0).isLt
  have hi1 : (i 1).val < 16 := (i 1).isLt
  obtain ⟨t, ht⟩ := band_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 16 ≤ (i 1).val ∧ (i 1).val < win1_2.index t (1 : Fin 2) * 16 + 16; omega

/-- The result array when the region ends: the whole product of the operands as the region found them. -/
theorem final (c : Dev nD) : (dat1 V c).arrAt 2 cfg1.N = G1 (V c main_v14) (V c main_arg5) :=
  (dat1 V c).arrAt_eq_of_cover 2 (G1 (V c main_v14) (V c main_arg5)) (fun t _ => flushed_eq V c t) covered

end Cert.KernelIdeal.Reg1

end
-- ==== Proof.Region2.lean ====
/-
  The decode region: when it ends, its result array holds, entry by entry, the logistic of the product Z·Zt of its two operand arrays as the region found them, band of 256 rows by band.
-/
import proofs.«117678_j31671088840936_2_alg».proof.Proof.Gen.KernelIdeal.Frame
import proofs.«117678_j31671088840936_2_alg».proof.Proof.Payloads
import Idealize.ShloMosaic.Lib.Pipeline.Value
import Idealize.ShloMosaic.Lib.ValueIdx

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen

/-- The whole 8192×8192 result as one function of the two whole operands: entry (a, b) is the logistic of ∑ c, A(a, c) · B(c, b). -/
def G2 (A : S8192x16.Idx → Elt Ideal .bf16) (B : S16x8192.Idx → Elt Ideal .bf16) : S8192x8192.Idx → Elt Ideal .f32 :=
  fun i => Ideal.logistic (∑ c : Fin 16, A (ix2 ⟨(i 0).val, (i 0).isLt⟩ c) * B (ix2 c ⟨(i 1).val, (i 1).isLt⟩))

theorem zero_offset : (![0, 0] : Fin 2 → Nat) = fun _ => 0 := funext fun a => by fin_cases a <;> rfl

/-- Where each window's block sits at grid point t: the left operand's and the result's blocks are the t-th band of
    256 rows, the right operand's block is the whole matrix. -/
theorem block_positions : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 31 :=
  (by decide +kernel : ∀ t : Fin grid2.N, _)

/-- Every band of 256 rows is some grid point's. -/
theorem band_onto : ∀ (b : Fin 32), ∃ t : Fin cfg2.N, win2_2.index t = ![b.val, 0] :=
  (by decide +kernel : ∀ (b : Fin 32), ∃ t : Fin grid2.N, win2_2.index t = ![b.val, 0])

variable (V : (c : Dev nD) → (b : Ref sig .tc) → Buf (Elt Ideal) ((c : Thread nD τ).loc b))

/-- What grid point t writes back is the t-th band of rows of the whole product of the operands as the region
    finds them. -/
theorem flushed_eq (c : Dev nD) (t : Fin cfg2.N) :
    (dat2 V c).flushed 2 t = ((cfg2.win 2).blk t).view.read (Elt Ideal) (G2 (V c main_v31) (V c main_v33)) := by
  show (cfg2.win 2).cut (grid2.coords t) ((dat2 V c).after 2 t) = _
  rw [after2_2]
  unfold out2_2
  rw [View.canon_unit_zero zero_offset]
  simp only [View.ld_unit_zero (S := S256x16) zero_offset, View.ld_unit_zero (S := S16x8192) zero_offset]
  obtain ⟨e0, e1, e2, e3, e4, e5⟩ := block_positions t
  funext j
  obtain ⟨p, q, rfl⟩ : ∃ (p : Fin 256) (q : Fin 8192), j = ix2 p q := ⟨j 0, j 1, eq_ix2 j⟩
  refine (Pay.pay2_apply _ _ p q).trans ?_
  show _ = G2 (V c main_v31) (V c main_v33) (((cfg2.win 2).blk t).view.emb (ix2 p q))
  unfold G2
  refine congrArg Ideal.logistic (Finset.sum_congr rfl fun x _ => ?_)
  have hA : ((cfg2.win 0).blk t).view.emb (ix2 p x) = ix2 ⟨((((cfg2.win 2).blk t).view.emb (ix2 p q)) 0).val, ((((cfg2.win 2).blk t).view.emb (ix2 p q)) 0).isLt⟩ x := by
    funext a; apply Fin.ext
    match a with
    | ⟨0, _⟩ => show win2_0.index t (0 : Fin 2) * 256 + 1 * p.val = win2_2.index t (0 : Fin 2) * 256 + 1 * p.val; omega
    | ⟨1, _⟩ => show win2_0.index t (1 : Fin 2) * 16 + 1 * x.val = x.val; omega
  have hB : ((cfg2.win 1).blk t).view.emb (ix2 x q) = ix2 x ⟨((((cfg2.win 2).blk t).view.emb (ix2 p q)) 1).val, ((((cfg2.win 2).blk t).view.emb (ix2 p q)) 1).isLt⟩ := by
    funext a; apply Fin.ext
    match a with
    | ⟨0, _⟩ => show win2_1.index t (0 : Fin 2) * 16 + 1 * x.val = x.val; omega
    | ⟨1, _⟩ => show win2_1.index t (1 : Fin 2) * 8192 + 1 * q.val = win2_2.index t (1 : Fin 2) * 8192 + 1 * q.val; omega
  refine congrArg₂ (fun (u v : EReal) => u * v) ?_ ?_
  · show V c main_v31 (((cfg2.win 0).blk t).view.emb (ix2 p x)) = _
    rw [hA]; rfl
  · show V c main_v33 (((cfg2.win 1).blk t).view.emb (ix2 x q)) = _
    rw [hB]; rfl

/-- An index of the result array lies in grid point t's block exactly when each coordinate lies in the block's range. -/
theorem mem_blk (t : Fin cfg2.N) (i : S8192x8192.Idx) :
    i ∈ ((cfg2.win 2).blk t).view.set ↔ ∀ a : Fin 2, win2_2.index t a * S256x8192.size a ≤ (i a).val ∧ (i a).val < win2_2.index t a * S256x8192.size a + S256x8192.size a := by
  show i ∈ ((View.whole main_v34).slice (win2_2.rect t)).set ↔ _
  rw [View.set_slice_whole, Rect.mem_set_unit]
  exact Iff.rfl

/-- The bands of 256 rows tile the result: row r is in band r / 256. -/
theorem covered (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := band_onto ⟨(i 0).val / 256, by omega⟩
  have q0 : win2_2.index t (0 : Fin 2) = (i 0).val / 256 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 8192 ≤ (i 1).val ∧ (i 1).val < win2_2.index t (1 : Fin 2) * 8192 + 8192; omega

/-- The result array when the region ends: the whole product of the operands as the region found them. -/
theorem final (c : Dev nD) : (dat2 V c).arrAt 2 cfg2.N = G2 (V c main_v31) (V c main_v33) :=
  (dat2 V c).arrAt_eq_of_cover 2 (G2 (V c main_v31) (V c main_v33)) (fun t _ => flushed_eq V c t) covered

end Cert.KernelIdeal.Reg2

end
-- ==== Proof.RefStages.lean ====
/-
  The three products, as the kernel's regions leave them, are the reference's own stages.

  Each region's result was described as one function of its operands: entry (a, b) is ∑ c, A(a, c) · B(c, b) (for the
  decode region, the logistic of that sum). The reference's matrix products read at an index are the same sums, and its
  sigmoid, spelt 1 / (1 + exp(−s)), is the logistic function. No property of the summands is used: the two sides are
  the same sum term by term.
-/
import proofs.«117678_j31671088840936_2_alg».proof.Proof.Region0
import proofs.«117678_j31671088840936_2_alg».proof.Proof.Region1
import proofs.«117678_j31671088840936_2_alg».proof.Proof.Region2
import proofs.«117678_j31671088840936_2_alg».proof.Proof.Gen.ReferenceIdeal.Read
import Idealize.ShloMosaic.Lib.IdealHost
import Idealize.ShloMosaic.Lib.ValueIdx

set_option maxRecDepth 16384

noncomputable section

namespace Cert.Bridge

open Idealize.ShloMosaic Idealize.ShloMosaic.TcCoe Idealize.ShloMosaic.ValueIdx
open Cert.ReferenceIdeal

/-- X·W0 as the first region leaves it is the reference's first product. -/
theorem proj0_eq (x0 : (⟨S8192x512, .f32⟩ : BufTy).Contents (Elt Ideal)) (x4 : (⟨S512x32, .f32⟩ : BufTy).Contents (Elt Ideal)) :
    Cert.KernelIdeal.Reg0.G0 x0 x4 = Read.val_main_v0 (F := Ideal) x0 x4 := by
  funext i
  rw [Read.val_main_v0_apply]
  unfold Cert.KernelIdeal.Reg0.G0
  refine Finset.sum_congr rfl fun k _ => ?_
  refine congrArg₂ (fun (u v : EReal) => u * v) (congrArg x0 ?_) (congrArg x4 ?_)
  · funext a; match a with
    | ⟨0, _⟩ => rfl
    | ⟨1, _⟩ => rfl
  · funext a; match a with
    | ⟨0, _⟩ => rfl
    | ⟨1, _⟩ => rfl

/-- H·W1 as the second region leaves it, H the reference's hidden layer, is the reference's second product. -/
theorem proj1_eq (x0 : (⟨S8192x512, .f32⟩ : BufTy).Contents (Elt Ideal)) (x1 x2 : (⟨S262144, .i32⟩ : BufTy).Contents (Elt Ideal)) (x3 : (⟨S262144, .f32⟩ : BufTy).Contents (Elt Ideal)) (x4 : (⟨S512x32, .f32⟩ : BufTy).Contents (Elt Ideal)) (x5 : (⟨S32x16, .f32⟩ : BufTy).Contents (Elt Ideal)) :
    Cert.KernelIdeal.Reg1.G1 (Read.val_main_v14 (F := Ideal) x0 x1 x2 x3 x4) x5 = Read.val_main_v15 (F := Ideal) x0 x1 x2 x3 x4 x5 := by
  funext i
  rw [Read.val_main_v15_apply]
  unfold Cert.KernelIdeal.Reg1.G1
  refine Finset.sum_congr rfl fun k _ => ?_
  refine congrArg₂ (fun (u v : EReal) => u * v) (congrArg (Read.val_main_v14 (F := Ideal) x0 x1 x2 x3 x4) ?_) (congrArg x5 ?_)
  · funext a; match a with
    | ⟨0, _⟩ => rfl
    | ⟨1, _⟩ => rfl
  · funext a; match a with
    | ⟨0, _⟩ => rfl
    | ⟨1, _⟩ => rfl

/-- logistic(Z·Zt) as the decode region leaves it, Z the reference's clamped latent matrix and Zt its transpose, is
    the reference's result: 1 / (1 + exp(−(Z·Zt))) entry by entry. -/
theorem decode_eq (x0 : (⟨S8192x512, .f32⟩ : BufTy).Contents (Elt Ideal)) (x1 x2 : (⟨S262144, .i32⟩ : BufTy).Contents (Elt Ideal)) (x3 : (⟨S262144, .f32⟩ : BufTy).Contents (Elt Ideal)) (x4 : (⟨S512x32, .f32⟩ : BufTy).Contents (Elt Ideal)) (x5 : (⟨S32x16, .f32⟩ : BufTy).Contents (Elt Ideal)) :
    Cert.KernelIdeal.Reg2.G2 (Read.val_main_v44 (F := Ideal) x0 x1 x2 x3 x4 x5) (Read.val_main_v47 (F := Ideal) x0 x1 x2 x3 x4 x5)
      = Read.val_main_v54 (F := Ideal) x0 x1 x2 x3 x4 x5 := by
  funext i
  rw [Read.val_main_v54_apply, Read.val_main_v53_apply, Read.val_main_cst_10_apply, Read.val_main_v52_apply, Read.val_main_v51_apply,
    Read.val_main_cst_9_apply, Read.val_main_v50_apply, Read.val_main_v49_apply, Read.val_main_v48_apply]
  unfold Cert.KernelIdeal.Reg2.G2
  simp only [Ideal.hostDivf_def, Ideal.addf_def, Ideal.hostUnary_exp_def, Ideal.hostNegf_def, Ideal.negf_def, Ideal.ofBits_def, Ideal.ofBits_one_f32]
  unfold Ideal.logistic
  refine congrArg (fun s : EReal => Ideal.div 1 (1 + Ideal.exp (-s))) (Finset.sum_congr rfl fun k _ => ?_)
  refine congrArg₂ (fun (u v : EReal) => u * v) (congrArg (Read.val_main_v44 (F := Ideal) x0 x1 x2 x3 x4 x5) ?_) (congrArg (Read.val_main_v47 (F := Ideal) x0 x1 x2 x3 x4 x5) ?_)
  · funext a; match a with
    | ⟨0, _⟩ => rfl
    | ⟨1, _⟩ => rfl
  · funext a; match a with
    | ⟨0, _⟩ => rfl
    | ⟨1, _⟩ => rfl

end Cert.Bridge

end
-- ==== Proof.KernelValue.lean ====
/-
  The idealized kernel's result array, as a function of its argument arrays.

  Region by region and stretch by stretch: the first region leaves X·W0; the host operations after it leave the hidden
  layer relu(A·(X·W0)); the second region leaves its product with W1; the host operations after it leave the clamped
  latent matrix Z = max(A·(H·W1), 1e-32) and its transpose; the decode region leaves logistic(Z·Zt). Each of these is
  the reference's stage of the same name, so the kernel's result is the reference's result as a function of the
  arguments. The host operations never write an argument array, so each is read back as launched.
-/
import proofs.«117678_j31671088840936_2_alg».proof.Proof.KRun
import proofs.«117678_j31671088840936_2_alg».proof.Proof.HostSide
import proofs.«117678_j31671088840936_2_alg».proof.Proof.RefStages

set_option maxRecDepth 16384

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- After the first region the edge arrays and the second weight are as launched. -/
theorem first_keeps :
    W1 m ρ c (Proc.devRef .tc main_arg1) = m ((c.tc : Thread nD τ).loc main_arg1)
    ∧ W1 m ρ c (Proc.devRef .tc main_arg2) = m ((c.tc : Thread nD τ).loc main_arg2)
    ∧ W1 m ρ c (Proc.devRef .tc main_arg3) = m ((c.tc : Thread nD τ).loc main_arg3)
    ∧ W1 m ρ c (Proc.devRef .tc main_arg5) = m ((c.tc : Thread nD τ).loc main_arg5) :=
  ⟨W1_of_ne m ρ c main_arg1 (by decide), W1_of_ne m ρ c main_arg2 (by decide), W1_of_ne m ρ c main_arg3 (by decide),
   W1_of_ne m ρ c main_arg5 (by decide)⟩

/-- The first region leaves the reference's first product X·W0. -/
theorem first_product :
    W1 m ρ c (Proc.devRef .tc main_v0)
      = Cert.ReferenceIdeal.Read.val_main_v0 (F := Ideal) (m ((c.tc : Thread nD τ).loc main_arg0)) (m ((c.tc : Thread nD τ).loc main_arg4)) :=
  (W1_arr m ρ c 2).trans ((Reg0.final (V0 m ρ) c).trans (proj0_eq _ _))

/-- At the second region's entry the edge arrays and the second weight are still as launched. -/
theorem second_entry_keeps :
    W3 m ρ c (Proc.devRef .tc main_arg1) = m ((c.tc : Thread nD τ).loc main_arg1)
    ∧ W3 m ρ c (Proc.devRef .tc main_arg2) = m ((c.tc : Thread nD τ).loc main_arg2)
    ∧ W3 m ρ c (Proc.devRef .tc main_arg3) = m ((c.tc : Thread nD τ).loc main_arg3)
    ∧ W3 m ρ c (Proc.devRef .tc main_arg5) = m ((c.tc : Thread nD τ).loc main_arg5) :=
  ⟨(kernel_keep1 (W1 m ρ c)).1.trans (first_keeps m ρ c).1,
   (kernel_keep1 (W1 m ρ c)).2.1.trans (first_keeps m ρ c).2.1,
   (kernel_keep1 (W1 m ρ c)).2.2.1.trans (first_keeps m ρ c).2.2.1,
   (kernel_keep1 (W1 m ρ c)).2.2.2.trans (first_keeps m ρ c).2.2.2⟩

/-- At the second region's entry its first operand is the reference's hidden layer. -/
theorem hidden_layer :
    W3 m ρ c (Proc.devRef .tc main_v14)
      = Cert.ReferenceIdeal.Read.val_main_v14 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (kernel_hidden (W1 m ρ c)).trans ?_
  rw [first_product m ρ c, (first_keeps m ρ c).1, (first_keeps m ρ c).2.1, (first_keeps m ρ c).2.2.1]
  exact (ref_hidden _ _ _ _ _).symm

/-- The second region leaves the reference's second product H·W1. -/
theorem second_product :
    W4 m ρ c (Proc.devRef .tc main_v15)
      = Cert.ReferenceIdeal.Read.val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 2).trans ((Reg1.final (V3 m ρ) c).trans ?_)
  show Reg1.G1 (W3 m ρ c (Proc.devRef .tc main_v14)) (W3 m ρ c (Proc.devRef .tc main_arg5)) = _
  rw [hidden_layer m ρ c, (second_entry_keeps m ρ c).2.2.2]
  exact proj1_eq _ _ _ _ _ _

/-- After the second region the edge arrays are still as launched. -/
theorem second_keeps :
    W4 m ρ c (Proc.devRef .tc main_arg1) = m ((c.tc : Thread nD τ).loc main_arg1)
    ∧ W4 m ρ c (Proc.devRef .tc main_arg2) = m ((c.tc : Thread nD τ).loc main_arg2)
    ∧ W4 m ρ c (Proc.devRef .tc main_arg3) = m ((c.tc : Thread nD τ).loc main_arg3) :=
  ⟨(W4_of_ne m ρ c main_arg1 (by decide)).trans (second_entry_keeps m ρ c).1,
   (W4_of_ne m ρ c main_arg2 (by decide)).trans (second_entry_keeps m ρ c).2.1,
   (W4_of_ne m ρ c main_arg3 (by decide)).trans (second_entry_keeps m ρ c).2.2.1⟩

/-- At the decode region's entry its first operand is the reference's clamped latent matrix. -/
theorem latent_matrix :
    W5 m ρ c (Proc.devRef .tc main_v31)
      = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (kernel_latent (W4 m ρ c)).trans ?_
  rw [second_product m ρ c, (second_keeps m ρ c).1, (second_keeps m ρ c).2.1, (second_keeps m ρ c).2.2]
  exact (ref_latent _ _ _ _ _ _).symm

/-- And its second operand is the reference's transposed latent matrix. -/
theorem latent_transposed :
    W5 m ρ c (Proc.devRef .tc main_v33)
      = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (kernel_latentT (W4 m ρ c)).trans ?_
  rw [second_product m ρ c, (second_keeps m ρ c).1, (second_keeps m ρ c).2.1, (second_keeps m ρ c).2.2]
  exact (ref_latentT _ _ _ _ _ _).symm

/-- The decode region leaves the reference's result. -/
theorem result_eq :
    W6 m ρ c (Proc.devRef .tc main_v34)
      = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 2).trans ((Reg2.final (V5 m ρ) c).trans ?_)
  show Reg2.G2 (W5 m ρ c (Proc.devRef .tc main_v31)) (W5 m ρ c (Proc.devRef .tc main_v33)) = _
  rw [latent_matrix m ρ c, latent_transposed m ρ c]
  exact decode_eq _ _ _ _ _ _

/-- The idealized kernel's run: its result array ends at the reference's result as a function of the arguments, the
    arguments unchanged. -/
theorem kernel_run : θ_run defs (onTc (τ := τ) (main (F := Ideal))) ⟨m, fun _ => 0, ρ⟩ (fun r => ∀ c : Dev nD,
      r.2.mem ((c.tc : Thread nD τ).loc main_v34)
        = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (KRun.run m ρ)

end Cert.Bridge

end
-- ==== Proof.lean ====
/-
  The certificate of a variational graph auto-encoder's forward pass against its jnp reference, at the ideal values.

  The kernel computes sigmoid(Z·Zᵀ) with Z = max(A·(relu(A·(X·W0))·W1), 1e-32), A the sparse adjacency given by its
  edge list: two dense projections and the decode product as three tiled TensorCore regions (operands rounded to bf16
  on the way into each product), the two sparse products A·(·) and the clamp as host operations between them. The
  reference computes the same expression with host matrix products and spells the sigmoid 1 / (1 + exp(−s)); it also
  computes a second branch from W2 that its result does not use.

  At the ideal values a rounding is the identity, a tiled product into a zero accumulator and a host product are the
  same sum ∑ c, A(a, c) · B(c, b), the logistic function is 1 / (1 + exp(−s)) by definition, and the host operations
  between the regions are the same operations on both sides applied to equal operands. So the two results are one
  function of the arguments, stage by stage, and no finiteness of the inputs is needed. The ideal pass rewrote no
  operation of the kernel, so there is nothing to preserve.
-/
import proofs.«117678_j31671088840936_2_alg».proof.Defs
import proofs.«117678_j31671088840936_2_alg».proof.Proof.Gen.Kernel
import proofs.«117678_j31671088840936_2_alg».proof.Proof.Gen.Kernel.Frame
import proofs.«117678_j31671088840936_2_alg».proof.Proof.Gen.KernelIdeal
import proofs.«117678_j31671088840936_2_alg».proof.Proof.Gen.KernelIdeal.Frame
import proofs.«117678_j31671088840936_2_alg».proof.Proof.Gen.ReferenceIdeal
import proofs.«117678_j31671088840936_2_alg».proof.Proof.Gen.ReferenceIdeal.Run
import proofs.«117678_j31671088840936_2_alg».proof.Proof.Gen.ReferenceIdeal.Read
import proofs.«117678_j31671088840936_2_alg».proof.Proof.Gen.Pre_finite_inputs
import proofs.«117678_j31671088840936_2_alg».proof.Proof.KernelValue

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the two programs end with the same result array: the reference's result
    as a function of the arguments, which the kernel's three regions and the host operations between them leave stage
    by stage. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
